-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S131072x256 .f32) (main_arg1 : FVec F S256x256 .f32) (main_arg2 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S8192x256 : Shape := ⟨2, ![8192, 256]⟩

abbrev nBuf : Space → Nat
  | .hbm => 6
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S1x256, .f32⟩
  | .hbm, ⟨5, _⟩ => ⟨S131072x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S131072x256.size a
  hwx0_3 : ∀ i : grid0.Coords, EltTy.bits .f32 = 32 ∨ (Rect.block (s := S131072x256) S8192x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S131072x256, .f32⟩
  | .hbm, ⟨4, _⟩ => ⟨S1x256, .f32⟩
  | .hbm, ⟨5, _⟩ => ⟨S131072x256, .f32⟩
  | .hbm, ⟨6, _⟩ => ⟨S131072x256, .f32⟩
  | .hbm, ⟨7, _⟩ => ⟨S_, .f32⟩
  | .hbm, ⟨8, _⟩ => ⟨S131072x256, .f32⟩
  | .hbm, ⟨9, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.AffineRelu.lean ====
/-
  The function both programs compute, stated once over the extended reals.

  For a batch `x` of 131072 rows of 256 numbers, a weight matrix `W` (256 output units, each with 256 input
  weights) and a bias vector `b` (one number per output unit), entry (r, o) of the result is

      max ( Σ_k x[r, k] · W[o, k]  +  b[o] ,  0 ).

  The sum runs over the 256 input coordinates; the zero is the f32 word 0x00000000, kept as a word so that
  neither side ever has to evaluate it.
-/
import Idealize.ShloMosaic.PureOps.Ideal
import Idealize.ShloMosaic.Lib.ValueIdx

noncomputable section

open Idealize.ShloMosaic Idealize.ShloMosaic.ValueIdx

namespace Cert.AffineRelu

/-- Entry (r, o) of the affine map followed by the positive part: the inner product of row `r` of `x` with row `o` of
    `W`, plus `b o`, cut off below at zero. -/
def affineRelu (x : (⟨2, ![131072, 256]⟩ : Shape).Idx → EReal) (W : (⟨2, ![256, 256]⟩ : Shape).Idx → EReal)
    (b : (⟨1, ![256]⟩ : Shape).Idx → EReal) : (⟨2, ![131072, 256]⟩ : Shape).Idx → EReal :=
  fun i => max ((∑ k : Fin 256, x (ix2 (i 0) k) * W (ix2 (i 1) k)) + b (ix1 (i 1))) (Ideal.ofBits .f32 0x00000000#32)

end Cert.AffineRelu

end
-- ==== Proof.ReferenceValue.lean ====
/-
  The reference program's result is the affine map followed by the positive part.

  The reference contracts the second axis of `x` with the second axis of `W` (so no transpose is needed: entry
  (r, o) of the product is Σ_k x[r, k] · W[o, k]), adds the bias broadcast along the rows, and takes the maximum with
  a zero broadcast over the whole array. Reading each of these operations at an index gives the specification
  term by term.
-/
import proofs.«100314_j45354854646103_2_alg».proof.Proof.Gen.ReferenceIdeal.Read
import proofs.«100314_j45354854646103_2_alg».proof.Proof.AffineRelu

noncomputable section

open Idealize.ShloMosaic Idealize.ShloMosaic.TcCoe Idealize.ShloMosaic.ValueIdx

namespace Cert.ReferenceIdeal.RefValue

open Cert.ReferenceIdeal Cert.ReferenceIdeal.Read

/-- The last stage of the reference, as a function of the three argument arrays, is `affineRelu`: at index (r, o) the
    contraction reads x[r, k] and W[o, k], the two broadcasts read b[o], and the zero is the same word. -/
theorem stage_eq (x : (⟨S131072x256, .f32⟩ : BufTy).Contents (Elt Ideal)) (W : (⟨S256x256, .f32⟩ : BufTy).Contents (Elt Ideal))
    (b : (⟨S256, .f32⟩ : BufTy).Contents (Elt Ideal)) :
    val_main_v4 (F := Ideal) x W b = Cert.AffineRelu.affineRelu x W b := by
  funext i
  rw [val_main_v4_apply, val_main_v3_apply, val_main_v0_apply, val_main_v2_apply, val_main_v1_apply,
    val_main_call0_v0_apply, val_main_call0_cst_apply]
  have el : ∀ k : Fin 256, lidx_main_v0 i k = ix2 (i 0) k := fun k => funext fun a => by
    match a with | ⟨0, _⟩ => rfl | ⟨1, _⟩ => rfl
  have er : ∀ k : Fin 256, ridx_main_v0 i k = ix2 (i 1) k := fun k => funext fun a => by
    match a with | ⟨0, _⟩ => rfl | ⟨1, _⟩ => rfl
  have eb : idx_main_v1 (idx_main_v2 i) = ix1 (i 1) := funext fun a => by
    match a with | ⟨0, _⟩ => rfl
  simp only [el, er, eb]
  rfl

end Cert.ReferenceIdeal.RefValue

end
-- ==== Proof.BodyValue.lean ====
/-
  What one grid step computes, read at an index.

  A step holds a block `X` of 8192 rows of `x`, the whole transposed weight matrix `Wt` (so Wt[k, o] = W[o, k]) and the
  bias as a single row `B`. It forms the matrix product X · Wt into a zero accumulator, adds the bias row to every row,
  and takes the maximum with zero. So entry (p, q) of the stored block is

      max ( Σ_k X[p, k] · Wt[k, q]  +  B[0, q] ,  0 ).

  The product into a zero accumulator is the plain sum over the one contracted axis (zero is the additive identity of
  the extended reals); the contraction index is re-indexed by its single coordinate.
-/
import proofs.«100314_j45354854646103_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.BodyValue

open Cert.KernelIdeal Cert.KernelIdeal.Gen

/-- Along the rows, the left operand is read at the output's row: axis 0 of the left operand is not contracted. -/
theorem lhs_row (j : S8192x256.Idx) (κ : dot_S8192x256_S256x256_S8192x256_1_0_0_1_n_n.contr.Idx) :
    (dot_S8192x256_S256x256_S8192x256_1_0_0_1_n_n.lhsIdx j κ 0).val = (j 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl

/-- Along the columns, the right operand is read at the output's column: axis 1 of the right operand is not contracted. -/
theorem rhs_col (j : S8192x256.Idx) (κ : dot_S8192x256_S256x256_S8192x256_1_0_0_1_n_n.contr.Idx) :
    (dot_S8192x256_S256x256_S8192x256_1_0_0_1_n_n.rhsIdx j κ 1).val = (j 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The left factor of term `k` of entry (p, q) of the product is X[p, k]: the row comes from the output index, the
    column is the contraction coordinate. -/
theorem lhs_at (p : Fin 8192) (q : Fin 256) (k : Fin 256) :
    dot_S8192x256_S256x256_S8192x256_1_0_0_1_n_n.lhsIdx (ix2 p q)
        ((contrEquiv1 dot_S8192x256_S256x256_S8192x256_1_0_0_1_n_n 256 rfl rfl).symm k) = ix2 p k :=
  funext fun a => Fin.ext (by
    match a with
    | ⟨0, _⟩ => exact lhs_row _ _
    | ⟨1, _⟩ =>
      exact (dot_S8192x256_S256x256_S8192x256_1_0_0_1_n_n.lhsIdx_val_of_single rfl _ _).trans
        (contrEquiv1_symm_val dot_S8192x256_S256x256_S8192x256_1_0_0_1_n_n 256 rfl rfl k))

/-- The right factor of term `k` of entry (p, q) is Wt[k, q]: the row is the contraction coordinate, the column comes
    from the output index. -/
theorem rhs_at (p : Fin 8192) (q : Fin 256) (k : Fin 256) :
    dot_S8192x256_S256x256_S8192x256_1_0_0_1_n_n.rhsIdx (ix2 p q)
        ((contrEquiv1 dot_S8192x256_S256x256_S8192x256_1_0_0_1_n_n 256 rfl rfl).symm k) = ix2 k q :=
  funext fun a => Fin.ext (by
    match a with
    | ⟨0, _⟩ =>
      exact (dot_S8192x256_S256x256_S8192x256_1_0_0_1_n_n.rhsIdx_val_of_single rfl _ _).trans
        (contrEquiv1_symm_val dot_S8192x256_S256x256_S8192x256_1_0_0_1_n_n 256 rfl rfl k)
    | ⟨1, _⟩ => exact rhs_col _ _)

/-- The matrix product into a zero accumulator, at entry (p, q): Σ_k X[p, k] · Wt[k, q]. -/
theorem product_at (X : FVec Ideal S8192x256 .f32) (Wt : FVec Ideal S256x256 .f32) (p : Fin 8192) (q : Fin 256) :
    matmul (F := Ideal) dot_S8192x256_S256x256_S8192x256_1_0_0_1_n_n (some .fp32) X Wt
        (constant (F := Ideal) S8192x256 .f32 0x00000000#32) (ix2 p q)
      = ∑ k : Fin 256, X (ix2 p k) * Wt (ix2 k q) := by
  simp only [matmul]
  rw [Ideal.matmul_constant_zero_apply,
    ← Equiv.sum_comp (contrEquiv1 dot_S8192x256_S256x256_S8192x256_1_0_0_1_n_n 256 rfl rfl).symm]
  refine Finset.sum_congr rfl fun k _ => ?_
  rw [lhs_at, rhs_at]

/-- Entry (p, q) of the block a step stores: the product entry plus the bias at column `q`, cut off below at zero. -/
theorem body_at (X : Vec Ideal S8192x256 .f32) (Wt : Vec Ideal S256x256 .f32) (B : Vec Ideal S1x256 .f32)
    (p : Fin 8192) (q : Fin 256) :
    k0_pay1 (F := Ideal) X Wt B (ix2 p q)
      = max ((∑ k : Fin 256, X (ix2 p k) * Wt (ix2 k q)) + B (ix2 (0 : Fin 1) q)) (Ideal.ofBits .f32 0x00000000#32) := by
  unfold k0_pay1
  simp only [shapeCast_self]
  rw [maximumf_apply, addf_apply, product_at, broadcastTo_1b_ab_apply, broadcast_apply]
  rfl

end Cert.KernelIdeal.BodyValue

end
-- ==== Proof.KernelValue.lean ====
/-
  The kernel's result array is the affine map followed by the positive part.

  Before the grid runs, the host transposes the weights (Wt[k, o] = W[o, k]) and views the bias as one row
  (B[0, o] = b[o]). The grid has 16 steps; step `t` holds rows 8192·t … 8192·t + 8191 of `x`, all of `Wt` and all of
  `B`, and writes rows 8192·t … 8192·t + 8191 of the result. By the body's value at an index, entry (p, q) of what
  step `t` writes is max(Σ_k x[8192·t + p, k] · W[q, k] + b[q], 0), which is entry (8192·t + p, q) of the
  specification. The 16 row blocks tile the 131072 rows (row `r` lies in block `r / 8192`), so the whole result array
  is the specification.
-/
import proofs.«100314_j45354854646103_2_alg».proof.Proof.Gen.KernelIdeal.Value
import proofs.«100314_j45354854646103_2_alg».proof.Proof.BodyValue
import proofs.«100314_j45354854646103_2_alg».proof.Proof.AffineRelu
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.AffineRelu

variable (m : (ℓ : Loc nD τ sig) → Buf (Elt Ideal) ℓ) (ρ : Dev nD → PrngReg)

theorem origin : (![0, 0] : Fin 2 → Nat) = fun _ => 0 := funext fun a => by fin_cases a <;> rfl

/-! ## The arrays the host prepares -/

/-- The second operand of the grid is the weight matrix transposed. -/
theorem weights_transposed (c : Dev nD) :
    (V m c main_v0 : S256x256.Idx → EReal)
      = transpose S256x256 [1, 0] (m ((c : Thread nD τ).loc main_arg1)) transposes_S256x256_S256x256_1_0 := by
  dsimp only [Gen.V, Gen.hostOps0]; after_results <;> rfl

/-- The third operand of the grid is the bias viewed as one row. -/
theorem bias_as_row (c : Dev nD) :
    (V m c main_v1 : S1x256.Idx → EReal)
      = shapeCast S1x256 (m ((c : Thread nD τ).loc main_arg2)) shapeCasts_S256_S1x256 := by
  dsimp only [Gen.V, Gen.hostOps0]; after_results <;> rfl

/-! ## Where each step's blocks sit -/

/-- The block index of each operand at step `t`: the rows of `x` and of the result move with `t`, the weights and
    the bias stay. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` that step `t` holds is row 8192·t + p of `x`. -/
theorem x_block (c : Dev nD) (t : Fin cfg0.N) (p : Fin 8192) (k : Fin 256) (r : Fin 131072)
    (hr : r.val = t.val * 8192 + p.val) :
    (iblk m c 0 t : Vec Ideal S8192x256 .f32) (ix2 p k)
      = (m ((c : Thread nD τ).loc main_arg0) : S131072x256.Idx → EReal) (ix2 r k) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = r.val; rw [e0, hr]; omega
  | ⟨1, _⟩ => show win0_0.index t (1 : Fin 2) * 256 + 1 * k.val = k.val; rw [e1]; omega

/-- Every step holds the whole transposed weight matrix: its entry (k, q) is W[q, k]. -/
theorem weights_block (c : Dev nD) (t : Fin cfg0.N) (k q : Fin 256) :
    (iblk m c 1 t : Vec Ideal S256x256 .f32) (ix2 k q)
      = (m ((c : Thread nD τ).loc main_arg1) : S256x256.Idx → EReal) (ix2 q k) := by
  obtain ⟨-, -, e2, e3, -⟩ := block_index t
  unfold iblk
  rw [View.read_apply]
  show (V m c main_v0 : S256x256.Idx → EReal) _ = _
  have hi : ((cfg0.win 1).blk t).view.emb (ix2 k q) = ix2 k q := funext fun a => Fin.ext (by
    match a with
    | ⟨0, _⟩ => show win0_1.index t (0 : Fin 2) * 256 + 1 * k.val = k.val; rw [e2]; omega
    | ⟨1, _⟩ => show win0_1.index t (1 : Fin 2) * 256 + 1 * q.val = q.val; rw [e3]; omega)
  rw [hi, weights_transposed, transpose_ix2_apply]

/-- Every step holds the whole bias row: its entry (0, q) is b[q]. -/
theorem bias_block (c : Dev nD) (t : Fin cfg0.N) (q : Fin 256) :
    (iblk m c 2 t : Vec Ideal S1x256 .f32) (ix2 (0 : Fin 1) q)
      = (m ((c : Thread nD τ).loc main_arg2) : S256.Idx → EReal) (ix1 q) := by
  obtain ⟨-, -, -, -, e4, e5, -⟩ := block_index t
  unfold iblk
  rw [View.read_apply]
  show (V m c main_v1 : S1x256.Idx → EReal) _ = _
  have hi : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e4]
    | ⟨1, _⟩ => show win0_2.index t (1 : Fin 2) * 256 + 1 * q.val = q.val; rw [e5]; omega)
  rw [hi, bias_as_row, shapeCast_a_1a_apply]

/-! ## What a step writes back, and the whole array -/

/-- Step `t` writes back rows 8192·t … 8192·t + 8191 of the specification: entry (p, q) of the stored block is the
    inner product of row 8192·t + p of `x` with row `q` of `W`, plus b[q], cut off below at zero. -/
theorem flushed_eq (c : Dev nD) (t : Fin cfg0.N) :
    (dats m 0 c).flushed 3 t = ((cfg0.win 3).blk t).view.read (Elt Ideal)
      (affineRelu (m ((c : Thread nD τ).loc main_arg0)) (m ((c : Thread nD τ).loc main_arg1)) (m ((c : Thread nD τ).loc main_arg2))) := by
  obtain ⟨-, -, -, -, -, -, e6, e7⟩ := block_index t
  rw [flushed3]
  unfold out0_3
  rw [View.canon_unit_zero origin]
  simp only [View.ld_unit_zero (S := S8192x256) origin, View.ld_unit_zero (S := S256x256) origin,
    View.ld_unit_zero (S := S1x256) origin]
  funext j
  obtain ⟨p, q, rfl⟩ : ∃ (p : Fin 8192) (q : Fin 256), j = ix2 p q := ⟨j 0, j 1, eq_ix2 j⟩
  refine (Cert.KernelIdeal.BodyValue.body_at (iblk m c 0 t) (iblk m c 1 t) (iblk m c 2 t) p q).trans ?_
  rw [View.read_apply]
  have h0 : ((((cfg0.win 3).blk t).view.emb (ix2 p q)) 0).val = t.val * 8192 + p.val := by
    show win0_3.index t (0 : Fin 2) * 8192 + 1 * p.val = _; rw [e6]; omega
  have h1 : (((cfg0.win 3).blk t).view.emb (ix2 p q)) 1 = q := Fin.ext (by
    show win0_3.index t (1 : Fin 2) * 256 + 1 * q.val = _; rw [e7]; omega)
  unfold affineRelu
  rw [h1, bias_block]
  refine congrArg (fun s => max (s + _) _) (Finset.sum_congr rfl fun k _ => ?_)
  rw [x_block m c t p k _ h0, weights_block]

/-- An index of the result array lies in step `t`'s block exactly when each coordinate is in the block's range. -/
theorem mem_block (t : Fin cfg0.N) (i : S131072x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v2).slice (win0_3.rect t)).set ↔ _
  rw [View.set_slice_whole, Rect.mem_set_unit]
  exact Iff.rfl

/-- The 16 row blocks tile the result: row `r` lies in the block of step `r / 8192`. -/
theorem covered (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 16 := N_0
  let t : Fin cfg0.N := ⟨(i 0).val / 8192, by rw [hN]; omega⟩
  obtain ⟨-, -, -, -, -, -, e6, e7⟩ := block_index t
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    rw [e6]; show (i 0).val / 8192 * 8192 ≤ (i 0).val ∧ (i 0).val < (i 0).val / 8192 * 8192 + 8192; omega
  | ⟨1, _⟩ =>
    show win0_3.index t (1 : Fin 2) * 256 ≤ (i 1).val ∧ (i 1).val < win0_3.index t (1 : Fin 2) * 256 + 256
    rw [e7]; omega

/-- So after the grid the result array is the specification of the three argument arrays. -/
theorem result_array (c : Dev nD) :
    (dats m 0 c).arrAt 3 cfg0.N
      = affineRelu (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel program terminates with the result array at the specification and the
    three arguments unchanged. -/
theorem run : θ_run defs (onTc (τ := τ) (main (F := Ideal))) ⟨m, fun _ => 0, ρ⟩ fun r => ∀ c : Dev nD,
      r.2.mem ((c : Thread nD τ).loc main_v2)
        = affineRelu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (run_blocks m ρ)

end Cert.KernelIdeal.ArrayValue

end
-- ==== Proof.lean ====
/-
  A dense layer with a positive-part activation, computed block by block, against the same layer computed at once.

  Both programs take a batch `x` (131072 rows of 256 numbers), a weight matrix `W` (256 output units by 256 inputs) and
  a bias `b` (256 numbers), and return the array whose entry (r, o) is

      max ( Σ_k x[r, k] · W[o, k]  +  b[o] ,  0 ).

  The reference contracts the second axes of `x` and `W`, adds the bias along the rows and takes the maximum with
  zero. The kernel first transposes `W` and views `b` as a row, then walks the rows of `x` in 16 blocks of 8192: each
  step multiplies its block by the transposed weights into a zero accumulator, adds the bias row and takes the maximum
  with zero. Over the extended reals the product into a zero accumulator is the plain sum, reading the transposed
  weights at (k, o) is reading `W` at (o, k), and the 16 row blocks tile the result; so both arrays are the one function
  `affineRelu` of the arguments. No law used here needs the inputs to be finite: only that zero is the additive identity,
  and the definitions of the operations at an index.

  The three programs' runs (termination without fault, arguments unchanged) are the generated ones; the idealized
  kernel is the kernel's own text read over the extended reals, so nothing is owed for the idealization.
-/
import proofs.«100314_j45354854646103_2_alg».proof.Defs
import proofs.«100314_j45354854646103_2_alg».proof.Proof.Gen.Kernel
import proofs.«100314_j45354854646103_2_alg».proof.Proof.Gen.Kernel.Frame
import proofs.«100314_j45354854646103_2_alg».proof.Proof.Gen.KernelIdeal
import proofs.«100314_j45354854646103_2_alg».proof.Proof.Gen.KernelIdeal.Frame
import proofs.«100314_j45354854646103_2_alg».proof.Proof.Gen.KernelIdeal.Value
import proofs.«100314_j45354854646103_2_alg».proof.Proof.Gen.ReferenceIdeal
import proofs.«100314_j45354854646103_2_alg».proof.Proof.Gen.ReferenceIdeal.Run
import proofs.«100314_j45354854646103_2_alg».proof.Proof.Gen.ReferenceIdeal.Read
import proofs.«100314_j45354854646103_2_alg».proof.Proof.Gen.Pre_finite_inputs
import proofs.«100314_j45354854646103_2_alg».proof.Proof.AffineRelu
import proofs.«100314_j45354854646103_2_alg».proof.Proof.ReferenceValue
import proofs.«100314_j45354854646103_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program terminates without fault and leaves its arguments as they were. -/
theorem frame_kernel : Cert.frame_Kernel := fun m ρ _ => Cert.Kernel.Gen.frame m ρ

/-- So does the same program read over the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on `x`, `W` and `b`, both programs end with the result array at `affineRelu x W b`: the kernel by
    its 16 row blocks, the reference by reading its operations at an index. -/
theorem algebraic : Cert.algebraic_KernelIdeal_ReferenceIdeal := by
  intro m ρ m' ρ' _ hagree
  refine ⟨fun c => Cert.AffineRelu.affineRelu (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
